-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v15 : IVec S1600000 1) (main_c_5 : IVec S_ 1) : IVec S_ 1 :=
  let main_v16 : IVec S_ 1 := (fun x v => Host.reduce IntOp.andi x v reducesTo_S1600000_S_d0 h_S_) main_v15 main_c_5
  let main_v17 : IVec S_ 1 := andi main_v13 main_v16
  main_v17

def fn {F : FTy → Type} [FloatOps F] (main_arg0 : FVec F S100000x64 .f32) (main_arg1 : IVec S1600000 32) (main_arg2 : IVec S1600000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg2 main_v14
  let main_c_5 : IVec S_ 1 := constantI S_ 1 1#1
  fn_part1 (F := F) main_v13 main_v15 main_c_5
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S50000x128 : Shape := ⟨2, ![50000, 128]⟩
abbrev S50000x2 : Shape := ⟨2, ![50000, 2]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S5000x2 : Shape := ⟨2, ![5000, 2]⟩
abbrev S5000x1 : Shape := ⟨2, ![5000, 1]⟩

abbrev nBuf : Space → Nat
  | .hbm => 57
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S100000, .f32⟩
  | .hbm, ⟨27, _⟩ => ⟨S_, .f32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S100000, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S50000x128, .f32⟩
  | .hbm, ⟨45, _⟩ => ⟨S50000x128, .f32⟩
  | .hbm, ⟨46, _⟩ => ⟨S50000x2, .f32⟩
  | .hbm, ⟨47, _⟩ => ⟨S64x64, .f32⟩
  | .hbm, ⟨48, _⟩ => ⟨S_, .f32⟩
  | .hbm, ⟨49, _⟩ => ⟨S64x64, .f32⟩
  | .hbm, ⟨50, _⟩ => ⟨S64x128, .f32⟩
  | .hbm, ⟨51, _⟩ => ⟨S64x128, .f32⟩
  | .hbm, ⟨52, _⟩ => ⟨S128x128, .f32⟩
  | .hbm, ⟨53, _⟩ => ⟨S128, .f32⟩
  | .hbm, ⟨54, _⟩ => ⟨S1x128, .f32⟩
  | .hbm, ⟨55, _⟩ => ⟨S50000x128, .f32⟩
  | .hbm, ⟨56, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x2, .f32⟩
  | .local _ .vmem, ⟨5, _⟩ => ⟨S5000x2, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_c_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  shapeCasts_S100000x64_S50000x128 : S100000x64.ShapeCasts S50000x128
  shapeCasts_S100000_S50000x2 : S100000.ShapeCasts S50000x2
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  iota_S5000x128_d1_w32 : S5000x128.Iotas .tc 32 [1]
  slices_S5000x2_o0_0_S5000x1 : S5000x2.Slices ![0, 0] S5000x1
  shapeCasts_S5000x1_S5000x1 : S5000x1.ShapeCasts S5000x1
  broadcasts_S5000x1_S5000x128 : S5000x1.Broadcasts S5000x128
  slices_S5000x2_o0_1_S5000x1 : S5000x2.Slices ![0, 1] S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S50000x2.size a
  hwx0_2 : ∀ i : grid0.Coords, EltTy.bits .f32 = 32 ∨ (Rect.block (s := S50000x2) S5000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x64, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S64x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.CombineBody.lean ====
/-
  One grid point's work, read at one entry.  A block holds 5000 packed rows of 128 lanes: lanes 0..63 of packed row p are
  node 2p, lanes 64..127 are node 2p+1.  The body adds the neighbour-sum block and the feature block, multiplies the sum by
  the 128 x 128 weight block on the matrix unit (into a zero accumulator), scales each lane by the reciprocal degree of
  the node the lane belongs to (column 0 of the [5000, 2] block for the left half, column 1 for the right half, chosen by
  comparing the lane number with 64) and adds the bias row.  At the exact instance the change of float format before the
  product is the identity, so entry (p, q) of what is stored is

      (sum over k < 128 of (n(p,k) + x(p,k)) * w(k,q)) * (if 64 <= q then r(p,1) else r(p,0)) + b(0,q).
-/
import proofs.«135414_j72619307041226_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

noncomputable section

namespace Cert.KernelIdeal.Combine

open Cert.KernelIdeal Cert.KernelIdeal.Gen Idealize.ShloMosaic Idealize.ShloMosaic.ValueIdx

/-- The lane test as a word: the signed comparison of the lane number (a 32-bit word below 128) with 64 is the one-bit
    word of 64 <= q.  A finite fact, checked lane by lane. -/
theorem lane_word : ∀ q : Fin 128, IntOp.cmpi .sge (BitVec.ofNat 32 q.val) 64#32 = if 64 ≤ q.val then 1#1 else 0#1 := by
  decide +kernel

/-- So a select on that word takes its first branch on the right half of the lanes and its second on the left half. -/
theorem lane_select {α : Type} (q : Fin 128) (a b : α) :
    Scalar.select (IntOp.cmpi .sge (BitVec.ofNat 32 q.val) 64#32) a b = if 64 ≤ q.val then a else b := by
  rw [lane_word q]
  by_cases h : 64 ≤ q.val
  · rw [if_pos h, if_pos h, select_one]
  · rw [if_neg h, if_neg h, select_zero]

/-- Column u of a [5000, 2] block, cut out as a [5000, 1] column and repeated along the 128 lanes, read at (p, q), is the
    block at (p, u). -/
theorem column_lanes {α : Type} (v : S5000x2.Idx → α) (u : Fin 2)
    (hs : S5000x2.Slices ![0, u.val] S5000x1) (hb : S5000x1.Broadcasts S5000x128)
    (p : Fin 5000) (q : Fin 128) :
    broadcastTo S5000x128 (extractStridedSlice S5000x1 ![0, u.val] v hs) hb (ix2 p q) = v (ix2 p u) := by
  rw [broadcastTo_apply _ hb (ix2 p q) (ix2 p (0 : Fin 1)) (fun ax => by
    match ax with
    | ⟨0, _⟩ => show p.val = if (5000 : Nat) = 1 then 0 else p.val; rw [if_neg (by decide)]
    | ⟨1, _⟩ => show (0 : Nat) = if (1 : Nat) = 1 then 0 else q.val; rw [if_pos rfl])]
  exact slice2_axis1_apply u.val v hs p (0 : Fin 1) u (by simp)

local notation "D128" => dot_S5000x128_S128x128_S5000x128_1_0_0_1_n_n

/-- The matrix product's left operand is read at (row of the output entry, contracted position) … -/
theorem lhs_row (i : S5000x128.Idx) (k : (dot_S5000x128_S128x128_S5000x128_1_0_0_1_n_n).contr.Idx) :
    ((dot_S5000x128_S128x128_S5000x128_1_0_0_1_n_n).lhsIdx i k 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl
theorem lhs_contr (i : S5000x128.Idx) (k : (dot_S5000x128_S128x128_S5000x128_1_0_0_1_n_n).contr.Idx) :
    ((dot_S5000x128_S128x128_S5000x128_1_0_0_1_n_n).lhsIdx i k 1).val = (k ⟨0, by decide⟩).val :=
  (dot_S5000x128_S128x128_S5000x128_1_0_0_1_n_n).lhsIdx_val_of_single rfl i k
/-- … and its right operand at (contracted position, lane of the output entry). -/
theorem rhs_contr (i : S5000x128.Idx) (k : (dot_S5000x128_S128x128_S5000x128_1_0_0_1_n_n).contr.Idx) :
    ((dot_S5000x128_S128x128_S5000x128_1_0_0_1_n_n).rhsIdx i k 0).val = (k ⟨0, by decide⟩).val :=
  (dot_S5000x128_S128x128_S5000x128_1_0_0_1_n_n).rhsIdx_val_of_single rfl i k
theorem rhs_lane (i : S5000x128.Idx) (k : (dot_S5000x128_S128x128_S5000x128_1_0_0_1_n_n).contr.Idx) :
    ((dot_S5000x128_S128x128_S5000x128_1_0_0_1_n_n).rhsIdx i k 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- The product on the matrix unit, into the zero accumulator, read at (p, q): the sum over the 128 contracted positions
    of row p of the left operand against column q of the right one. -/
theorem product_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : (dot_S5000x128_S128x128_S5000x128_1_0_0_1_n_n).lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_contr _ _).trans hk)
  have er : (dot_S5000x128_S128x128_S5000x128_1_0_0_1_n_n).rhsIdx (ix2 p q)
      ((contrEquiv1 dot_S5000x128_S128x128_S5000x128_1_0_0_1_n_n 128 rfl rfl).symm k) = ix2 k q :=
    funext fun a => Fin.ext (by
      match a with
      | ⟨0, _⟩ => exact (rhs_contr _ _).trans hk
      | ⟨1, _⟩ => exact rhs_lane _ _)
  rw [el, er]

/-- THE BODY AT AN ENTRY: what the body stores, at packed row p and lane q, from the five blocks it loads. -/
theorem stored_apply (v0 v2 : Vec Ideal S5000x128 .f32) (v6 : Vec Ideal S128x128 .f32) (v10 : Vec Ideal S5000x2 .f32)
    (v23 : Vec Ideal S1x128 .f32) (p : Fin 5000) (q : Fin 128) :
    k0_pay1 (F := Ideal) v0 v2 v6 v10 v23 (ix2 p q)
      = (∑ k : Fin 128, (v0 (ix2 p k) + v2 (ix2 p k)) * v6 (ix2 k q))
          * (if 64 ≤ q.val then v10 (ix2 p (1 : Fin 2)) else v10 (ix2 p (0 : Fin 2)))
        + v23 (ix2 (0 : Fin 1) q) := by
  unfold k0_pay1
  simp only [shapeCast_self]
  rw [addf_apply, mulf_apply]
  refine congrArg₂ (· + ·) (congrArg₂ (· * ·) ?_ ?_) ?_
  · rw [product_apply]
    rfl
  · rw [select_apply]
    have e1 : broadcastTo S5000x128 (extractStridedSlice S5000x1 ![0, 1] v10 Facts₀.slices_S5000x2_o0_1_S5000x1)
        Facts₀.broadcasts_S5000x1_S5000x128 (ix2 p q) = v10 (ix2 p (1 : Fin 2)) :=
      column_lanes v10 (1 : Fin 2) _ _ p q
    have e0 : broadcastTo S5000x128 (extractStridedSlice S5000x1 ![0, 0] v10 Facts₀.slices_S5000x2_o0_0_S5000x1)
        Facts₀.broadcasts_S5000x1_S5000x128 (ix2 p q) = v10 (ix2 p (0 : Fin 2)) :=
      column_lanes v10 (0 : Fin 2) _ _ p q
    rw [e1, e0]
    show Scalar.select (IntOp.cmpi .sge (iota .tc S5000x128 32 [1] Facts₀.iota_S5000x128_d1_w32 (ix2 p q)) 64#32) _ _ = _
    rw [iota_single_apply]
    exact lane_select q _ _
  · exact broadcastTo_1b_ab_apply v23 _ p q

end Cert.KernelIdeal.Combine

end
-- ==== Proof.PackedArray.lean ====
/-
  From blocks to the whole packed output.  The grid has 10 points; point t works on packed rows 5000 t .. 5000 t + 4999
  of the three row-blocked operands (neighbour sums, features, reciprocal degrees) and on the whole weight and bias
  operands, and writes back the same rows of the output.  So packed row P = 5000 t + p of the output depends only on packed
  row P of the operands, and the blocks of the ten points tile the [50000, 128] output: the output array after the run is
  ONE function of the five operand arrays, entry by entry,

      out(P, q) = (sum over k < 128 of (n(P,k) + x(P,k)) * w(k,q)) * (if 64 <= q then r(P,1) else r(P,0)) + b(0,q).
-/
import proofs.«135414_j72619307041226_2_alg».proof.Proof.Gen.KernelIdeal.Frame
import proofs.«135414_j72619307041226_2_alg».proof.Proof.CombineBody
import Idealize.ShloMosaic.Lib.Pipeline.Value
import Idealize.ShloMosaic.Lib.ValueIdx

set_option maxRecDepth 16384

noncomputable section

namespace Cert.KernelIdeal.Packed

open Cert.KernelIdeal Cert.KernelIdeal.Gen Idealize.ShloMosaic Idealize.ShloMosaic.TcCoe Idealize.SL.Sem
open Idealize.ShloMosaic.ValueIdx
open Idealize.ShloMosaic.Pipeline (Dat)

/-- One entry of the packed output from the five operand arrays. -/
def entry (n x : S50000x128.Idx → EReal) (r : S50000x2.Idx → EReal) (w : S128x128.Idx → EReal) (b : S1x128.Idx → EReal)
    (P : Fin 50000) (q : Fin 128) : EReal :=
  (∑ k : Fin 128, (n (ix2 P k) + x (ix2 P k)) * w (ix2 k q))
    * (if 64 ≤ q.val then r (ix2 P (1 : Fin 2)) else r (ix2 P (0 : Fin 2)))
  + b (ix2 (0 : Fin 1) q)

/-- The packed output as one array. -/
def packed (n x : S50000x128.Idx → EReal) (r : S50000x2.Idx → EReal) (w : S128x128.Idx → EReal) (b : S1x128.Idx → EReal) :
    S50000x128.Idx → EReal :=
  fun i => entry n x r w b ⟨(i 0).val, idx2_lt0 i⟩ ⟨(i 1).val, idx2_lt1 i⟩

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the ten grid points: the three row-blocked inputs and the output are at block row
    t, block column 0; the weight and the bias stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Packed row p of point t's block is packed row 5000 t + p of the array. -/
def row (t : Fin cfg0.N) (p : Fin 5000) : Fin 50000 :=
  ⟨t.val * 5000 + p.val, by have h := t.isLt; have hN : cfg0.N = 10 := N_0; have := p.isLt; omega⟩

/-! ## Where a block's entries sit in its array -/

theorem emb_neigh (t : Fin cfg0.N) (p : Fin 5000) (k : Fin 128) :
    ((cfg0.win 0).blk t).view.emb (ix2 p k) = ix2 (row t p) k := by
  obtain ⟨e0, e1, -⟩ := index_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb_feat (t : Fin cfg0.N) (p : Fin 5000) (k : Fin 128) :
    ((cfg0.win 1).blk t).view.emb (ix2 p k) = ix2 (row t p) k := by
  obtain ⟨-, -, e0, e1, -⟩ := index_facts t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

theorem emb_recip (t : Fin cfg0.N) (p : Fin 5000) (u : Fin 2) :
    ((cfg0.win 2).blk t).view.emb (ix2 p u) = ix2 (row t p) u := by
  obtain ⟨-, -, -, -, e0, e1, -⟩ := index_facts t
  funext a; apply Fin.ext
  match a with
  | ⟨0, _⟩ => show win0_2.index t (0 : Fin 2) * 5000 + 1 * p.val = t.val * 5000 + p.val; omega
  | ⟨1, _⟩ => show win0_2.index t (1 : Fin 2) * 2 + 1 * u.val = u.val; omega

theorem emb_weight (t : Fin cfg0.N) (k q : Fin 128) :
    ((cfg0.win 3).blk t).view.emb (ix2 k q) = ix2 k q := by
  obtain ⟨-, -, -, -, -, -, e0, e1, -⟩ := index_facts t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem emb_bias (t : Fin cfg0.N) (z : Fin 1) (q : Fin 128) :
    ((cfg0.win 4).blk t).view.emb (ix2 z q) = ix2 z q := by
  obtain ⟨-, -, -, -, -, -, -, -, e0, e1, -⟩ := index_facts t
  funext a; apply Fin.ext
  match a with
  | ⟨0, _⟩ => show win0_4.index t (0 : Fin 2) * 1 + 1 * z.val = z.val; omega
  | ⟨1, _⟩ => show win0_4.index t (1 : Fin 2) * 128 + 1 * q.val = q.val; omega

theorem emb_out (t : Fin cfg0.N) (p : Fin 5000) (q : Fin 128) :
    ((cfg0.win 5).blk t).view.emb (ix2 p q) = ix2 (row t p) q := by
  obtain ⟨-, -, -, -, -, -, -, -, -, -, e0, e1⟩ := index_facts t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-! ## What a point writes back -/

/-- One point's stored entry, from ANY five blocks that read the operand arrays where the point's windows sit: the entry of
    the packed output at packed row 5000 t + p. -/
theorem point_entry (A X : S50000x128.Idx → EReal) (R : S50000x2.Idx → EReal) (W : S128x128.Idx → EReal)
    (B : S1x128.Idx → EReal) (t : Fin cfg0.N)
    (x0 x1 : Vec Ideal S5000x128 .f32) (x2 : Vec Ideal S5000x2 .f32) (x3 : Vec Ideal S128x128 .f32) (x4 : Vec Ideal S1x128 .f32)
    (h0 : ∀ (p : Fin 5000) (k : Fin 128), x0 (ix2 p k) = A (ix2 (row t p) k))
    (h1 : ∀ (p : Fin 5000) (k : Fin 128), x1 (ix2 p k) = X (ix2 (row t p) k))
    (h2 : ∀ (p : Fin 5000) (u : Fin 2), x2 (ix2 p u) = R (ix2 (row t p) u))
    (h3 : ∀ (k q : Fin 128), x3 (ix2 k q) = W (ix2 k q))
    (h4 : ∀ (q : Fin 128), x4 (ix2 (0 : Fin 1) q) = B (ix2 (0 : Fin 1) q))
    (p : Fin 5000) (q : Fin 128) :
    k0_pay1 (F := Ideal) x0 x1 x3 x2 x4 (ix2 p q) = entry A X R W B (row t p) q := by
  rw [Combine.stored_apply]
  unfold entry
  rw [h2 p 1, h2 p 0, h4 q]
  refine congrArg₂ (· + ·) (congrArg₂ (· * ·) (Finset.sum_congr rfl fun k _ => ?_) rfl) rfl
  rw [h0 p k, h1 p k, h3 k q]

/-- The packed output read where point t's output block sits. -/
theorem packed_at_block (A X : S50000x128.Idx → EReal) (R : S50000x2.Idx → EReal) (W : S128x128.Idx → EReal)
    (B : S1x128.Idx → EReal) (t : Fin cfg0.N) (p : Fin 5000) (q : Fin 128) :
    packed A X R W B (((cfg0.win 5).blk t).view.emb (ix2 p q)) = entry A X R W B (row t p) q := by
  rw [emb_out t p q]; rfl

/-! ## The ten blocks tile the output -/

/-- An index of the output is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v38).slice (win0_5.rect t)).set ↔ _
  rw [View.set_slice_whole, Rect.mem_set_unit]
  exact Iff.rfl

/-- Every entry of the output is in the block of the point its packed row divided by 5000 names. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have ht : (i 0).val / 5000 < cfg0.N := by omega
  obtain ⟨-, -, -, -, -, -, -, -, -, -, e0, e1⟩ := index_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

end Cert.KernelIdeal.Packed

end
-- ==== Proof.PackedFinal.lean ====
/-
  The packed output array after the run.  What a grid point writes back is read here for ARBITRARY blocks and an arbitrary
  target array first (a block read through a window is the array at the block's rows; the one stored piece covers the
  output block), and only then at the region's own operand arrays: point t writes back block t of the packed output, the
  ten blocks tile it, so the output array ends at the packed output of the five operand arrays.
-/
import proofs.«135414_j72619307041226_2_alg».proof.Proof.Gen.KernelIdeal.Frame
import proofs.«135414_j72619307041226_2_alg».proof.Proof.PackedArray
import Idealize.ShloMosaic.Lib.Pipeline.Value
import Idealize.ShloMosaic.Lib.ValueIdx

set_option maxRecDepth 16384

noncomputable section

namespace Cert.KernelIdeal.Packed

open Cert.KernelIdeal Cert.KernelIdeal.Gen Idealize.ShloMosaic Idealize.ShloMosaic.TcCoe Idealize.SL.Sem
open Idealize.ShloMosaic.ValueIdx
open Idealize.ShloMosaic.Pipeline (Dat)

/-! ## A block read through a window, for any array -/

theorem read_rows0 (t : Fin cfg0.N) (A : S50000x128.Idx → EReal) (p : Fin 5000) (k : Fin 128) :
    ((cfg0.win 0).blk t).view.read (Elt Ideal) A (ix2 p k) = A (ix2 (row t p) k) := by
  show A (((cfg0.win 0).blk t).view.emb (ix2 p k)) = _
  rw [emb_neigh]
theorem read_rows1 (t : Fin cfg0.N) (A : S50000x128.Idx → EReal) (p : Fin 5000) (k : Fin 128) :
    ((cfg0.win 1).blk t).view.read (Elt Ideal) A (ix2 p k) = A (ix2 (row t p) k) := by
  show A (((cfg0.win 1).blk t).view.emb (ix2 p k)) = _
  rw [emb_feat]
theorem read_rows2 (t : Fin cfg0.N) (A : S50000x2.Idx → EReal) (p : Fin 5000) (u : Fin 2) :
    ((cfg0.win 2).blk t).view.read (Elt Ideal) A (ix2 p u) = A (ix2 (row t p) u) := by
  show A (((cfg0.win 2).blk t).view.emb (ix2 p u)) = _
  rw [emb_recip]
theorem read_whole3 (t : Fin cfg0.N) (A : S128x128.Idx → EReal) (k q : Fin 128) :
    ((cfg0.win 3).blk t).view.read (Elt Ideal) A (ix2 k q) = A (ix2 k q) := by
  show A (((cfg0.win 3).blk t).view.emb (ix2 k q)) = _
  rw [emb_weight]
theorem read_whole4 (t : Fin cfg0.N) (A : S1x128.Idx → EReal) (q : Fin 128) :
    ((cfg0.win 4).blk t).view.read (Elt Ideal) A (ix2 (0 : Fin 1) q) = A (ix2 (0 : Fin 1) q) := by
  show A (((cfg0.win 4).blk t).view.emb (ix2 (0 : Fin 1) q)) = _
  rw [emb_bias]
theorem read_rows5 (t : Fin cfg0.N) (G : S50000x128.Idx → EReal) (p : Fin 5000) (q : Fin 128) :
    ((cfg0.win 5).blk t).view.read (Elt Ideal) G (ix2 p q) = G (ix2 (row t p) q) := by
  show G (((cfg0.win 5).blk t).view.emb (ix2 p q)) = _
  rw [emb_out]

/-! ## What a point writes back, for any blocks -/

/-- If the body's stored value at (p, q), from five blocks, is the target array at packed row 5000 t + p, then what the
    point writes back is the target array's block t. -/
theorem written_back (t : Fin cfg0.N)
    (x0 x1 : Vec Ideal S5000x128 .f32) (x2 : Vec Ideal S5000x2 .f32) (x3 : Vec Ideal S128x128 .f32) (x4 : Vec Ideal S1x128 .f32)
    (G : S50000x128.Idx → EReal)
    (hG : ∀ (p : Fin 5000) (q : Fin 128), k0_pay1 (F := Ideal) x0 x1 x3 x2 x4 (ix2 p q) = G (ix2 (row t p) q)) :
    (cfg0.win 5).cut (grid0.coords t) (out0_5 x0 x1 x2 x3 x4) = ((cfg0.win 5).blk t).view.read (Elt Ideal) G := by
  unfold out0_5
  rw [View.canon_unit_zero zero_offsets]
  simp only [View.ld_unit_zero (S := S5000x128) zero_offsets, View.ld_unit_zero (S := S128x128) zero_offsets,
    View.ld_unit_zero (S := S5000x2) zero_offsets, View.ld_unit_zero (S := S1x128) zero_offsets]
  funext j
  obtain ⟨p, q, rfl⟩ : ∃ (p : Fin 5000) (q : Fin 128), j = ix2 p q := ⟨j 0, j 1, eq_ix2 j⟩
  rw [read_rows5]
  exact hG p q

/-! ## At the region's own arrays -/

variable (m : (ℓ : Loc nD τ sig) → Buf (Elt Ideal) ℓ)

/-- The packed output at an index given by its two coordinates. -/
theorem packed_ix2 (A X : S50000x128.Idx → EReal) (R : S50000x2.Idx → EReal) (W : S128x128.Idx → EReal)
    (B : S1x128.Idx → EReal) (P : Fin 50000) (q : Fin 128) :
    packed A X R W B (ix2 P q) = entry A X R W B P q := rfl

theorem iblk_rows0 (c : Dev nD) (t : Fin cfg0.N) (p : Fin 5000) (k : Fin 128) :
    iblk m c 0 t (ix2 p k) = V m c main_v28 (ix2 (row t p) k) := by
  unfold iblk
  exact read_rows0 t (V m c main_v28) p k
theorem iblk_rows1 (c : Dev nD) (t : Fin cfg0.N) (p : Fin 5000) (k : Fin 128) :
    iblk m c 1 t (ix2 p k) = V m c main_v29 (ix2 (row t p) k) := by
  unfold iblk
  exact read_rows1 t (V m c main_v29) p k
theorem iblk_rows2 (c : Dev nD) (t : Fin cfg0.N) (p : Fin 5000) (u : Fin 2) :
    iblk m c 2 t (ix2 p u) = V m c main_v30 (ix2 (row t p) u) := by
  unfold iblk
  exact read_rows2 t (V m c main_v30) p u
theorem iblk_whole3 (c : Dev nD) (t : Fin cfg0.N) (k q : Fin 128) :
    iblk m c 3 t (ix2 k q) = V m c main_v35 (ix2 k q) := by
  unfold iblk
  exact read_whole3 t (V m c main_v35) k q
theorem iblk_whole4 (c : Dev nD) (t : Fin cfg0.N) (q : Fin 128) :
    iblk m c 4 t (ix2 (0 : Fin 1) q) = V m c main_v37 (ix2 (0 : Fin 1) q) := by
  unfold iblk
  exact read_whole4 t (V m c main_v37) q

/-- WHAT POINT t WRITES BACK is block t of the packed output of the operand arrays as the region finds them. -/
theorem flushed_eq (c : Dev nD) (t : Fin cfg0.N) :
    (dats m 0 c).flushed 5 t = ((cfg0.win 5).blk t).view.read (Elt Ideal)
      (packed (V m c main_v28) (V m c main_v29) (V m c main_v30) (V m c main_v35) (V m c main_v37)) := by
  show (cfg0.win 5).cut (grid0.coords t) ((dats m 0 c).after 5 t) = _
  rw [after0_5]
  exact written_back t (iblk m c 0 t) (iblk m c 1 t) (iblk m c 2 t) (iblk m c 3 t) (iblk m c 4 t)
    (packed (V m c main_v28) (V m c main_v29) (V m c main_v30) (V m c main_v35) (V m c main_v37))
    (fun p q => (point_entry (V m c main_v28) (V m c main_v29) (V m c main_v30) (V m c main_v35) (V m c main_v37) t
      (iblk m c 0 t) (iblk m c 1 t) (iblk m c 2 t) (iblk m c 3 t) (iblk m c 4 t)
      (iblk_rows0 m c t) (iblk_rows1 m c t) (iblk_rows2 m c t) (iblk_whole3 m c t) (iblk_whole4 m c t) p q).trans
      (packed_ix2 (V m c main_v28) (V m c main_v29) (V m c main_v30) (V m c main_v35) (V m c main_v37) (row t p) q).symm)

/-- THE OUTPUT ARRAY after the run: the packed output of the operand arrays as the region finds them. -/
theorem final (c : Dev nD) :
    (dats m 0 c).arrAt 5 cfg0.N
      = packed (V m c main_v28) (V m c main_v29) (V m c main_v30) (V m c main_v35) (V m c main_v37) :=
  (dats m 0 c).arrAt_eq_of_cover 5 _ (fun t _ => flushed_eq m c t) cover

end Cert.KernelIdeal.Packed

end
-- ==== Proof.KernelOperands.lean ====
/-
  What the region finds in its five operand arrays: the host lines before the launch, read back as terms of the arguments.
  A destination (or source) index is first wrapped the NumPy way (a negative index i is read as i + 100000).  The
  neighbour sums scatter-add the gathered source rows into the zero array at the wrapped destinations; the degree counts
  scatter-add ones; the reciprocal is 1 / (degree + 1).  The neighbour sums and the features are then viewed as
  [50000, 128] (two nodes per packed row), the reciprocals as [50000, 2]; the weight operand is the block-diagonal
  [[W^T, 0], [0, W^T]] and the bias operand is the bias twice, as one row of 128.
-/
import proofs.«135414_j72619307041226_2_alg».proof.Proof.Gen.KernelIdeal.Frame
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.StableHlo

variable {F : FTy → Type} [FloatOps F]

/-- The NumPy-style wrap of an index array: a negative entry i becomes i + 100000, the others stay. -/
def wrap (ix : IVec S1600000 32) : IVec S1600000 32 :=
  select (cmpi .slt ix (broadcastInDim S1600000 ![] Facts₀.bcast_S_S1600000 (constantI S_ 32 0#32)))
    (addi ix (broadcastInDim S1600000 ![] Facts₀.bcast_S_S1600000 (constantI S_ 32 100000#32))) ix

/-- The neighbour sums: the gathered source rows scatter-added into zeros at the wrapped destinations. -/
def neigh (x : FVec F S100000x64 .f32) (src dst : IVec S1600000 32) : FVec F S100000x64 .f32 :=
  Host.scatterAdd scatter_S100000x64_S1600000x1_S1600000x64_1_0_0_1
    (broadcastInDim S100000x64 ![] Facts₀.bcast_S_S100000x64 (constant S_ .f32 0x00000000#32))
    (broadcastInDim S1600000x1 ![0] Facts₀.bcast_S1600000_S1600000x1_0 (wrap dst))
    (Host.gather gather_S100000x64_S1600000x1_S1600000x64_1_0_n_n_0_1_164 x
      (broadcastInDim S1600000x1 ![0] Facts₀.bcast_S1600000_S1600000x1_0 (wrap src)))

/-- Degree plus one: ones scatter-added into zeros at the wrapped destinations, plus one. -/
def degp (dst : IVec S1600000 32) : FVec F S100000 .f32 :=
  addf (Host.scatterAdd scatter_S100000_S1600000x1_S1600000_n_0_0_1
      (broadcastInDim S100000 ![] Facts₀.bcast_S_S100000 (constant S_ .f32 0x00000000#32))
      (broadcastInDim S1600000x1 ![0] Facts₀.bcast_S1600000_S1600000x1_0 (wrap dst))
      (broadcastInDim S1600000 ![] Facts₀.bcast_S_S1600000 (constant S_ .f32 0x3F800000#32)))
    (broadcastInDim S100000 ![] Facts₀.bcast_S_S100000 (constant S_ .f32 0x3F800000#32))

/-- The reciprocal 1 / (degree + 1). -/
def recip (dst : IVec S1600000 32) : FVec F S100000 .f32 :=
  Host.divf (broadcastInDim S100000 ![] Facts₀.bcast_S_S100000 (constant S_ .f32 0x3F800000#32)) (degp (F := F) dst)

/-- The block-diagonal weight [[W^T, 0], [0, W^T]]. -/
def wbd (W : FVec F S64x64 .f32) : FVec F S128x128 .f32 :=
  concatenate S128x128 0
    [⟨S64x128, concatenate S64x128 1 [⟨S64x64, transpose S64x64 [1, 0] W Facts₀.transposes_S64x64_S64x64_1_0⟩,
        ⟨S64x64, broadcastInDim S64x64 ![] Facts₀.bcast_S_S64x64 (constant S_ .f32 0x00000000#32)⟩] Facts₀.concatenates_S64x64_S64x64_S64x128_d1⟩,
     ⟨S64x128, concatenate S64x128 1 [⟨S64x64, broadcastInDim S64x64 ![] Facts₀.bcast_S_S64x64 (constant S_ .f32 0x00000000#32)⟩,
        ⟨S64x64, transpose S64x64 [1, 0] W Facts₀.transposes_S64x64_S64x64_1_0⟩] Facts₀.concatenates_S64x64_S64x64_S64x128_d1⟩]
    Facts₀.concatenates_S64x128_S64x128_S128x128_d0

/-- The bias twice, as one row of 128. -/
def brow (b : FVec F S64 .f32) : FVec F S1x128 .f32 :=
  shapeCast S1x128 (concatenate S128 0 [⟨S64, b⟩, ⟨S64, b⟩] Facts₀.concatenates_S64_S64_S128_d0) Facts₀.shapeCasts_S128_S1x128

variable (m : (ℓ : Loc nD τ sig) → Buf (Elt F) ℓ)

set_option maxHeartbeats 4000000 in
/-- Operand 0: the neighbour sums viewed [50000, 128]. -/
theorem operand_neigh (c : Dev nD) :
    V m c main_v28 = shapeCast S50000x128 (neigh (F := F) (m ((c.tc : Thread nD τ).loc main_arg0))
      (m ((c.tc : Thread nD τ).loc main_arg1)) (m ((c.tc : Thread nD τ).loc main_arg2))) Facts₀.shapeCasts_S100000x64_S50000x128 := by
  show StableHlo.after hostOps0 (fun b => m (c, b)) (Proc.devRef .tc main_v28) = _
  after_results_simp <;> rfl

set_option maxHeartbeats 4000000 in
/-- Operand 1: the features viewed [50000, 128]. -/
theorem operand_feat (c : Dev nD) :
    V m c main_v29 = shapeCast S50000x128 (m ((c.tc : Thread nD τ).loc main_arg0)) Facts₀.shapeCasts_S100000x64_S50000x128 := by
  show StableHlo.after hostOps0 (fun b => m (c, b)) (Proc.devRef .tc main_v29) = _
  after_results_simp <;> rfl

set_option maxHeartbeats 4000000 in
/-- Operand 2: the reciprocals viewed [50000, 2]. -/
theorem operand_recip (c : Dev nD) :
    V m c main_v30 = shapeCast S50000x2 (recip (F := F) (m ((c.tc : Thread nD τ).loc main_arg2))) Facts₀.shapeCasts_S100000_S50000x2 := by
  show StableHlo.after hostOps0 (fun b => m (c, b)) (Proc.devRef .tc main_v30) = _
  after_results_simp <;> rfl

set_option maxHeartbeats 4000000 in
/-- Operand 3: the block-diagonal weight. -/
theorem operand_weight (c : Dev nD) :
    V m c main_v35 = wbd (F := F) (m ((c.tc : Thread nD τ).loc main_arg3)) := by
  show StableHlo.after hostOps0 (fun b => m (c, b)) (Proc.devRef .tc main_v35) = _
  after_results_simp <;> rfl

set_option maxHeartbeats 4000000 in
/-- Operand 4: the bias row. -/
theorem operand_bias (c : Dev nD) :
    V m c main_v37 = brow (F := F) (m ((c.tc : Thread nD τ).loc main_arg4)) := by
  show StableHlo.after hostOps0 (fun b => m (c, b)) (Proc.devRef .tc main_v37) = _
  after_results_simp <;> rfl

end Cert.KernelIdeal.Operands

end
-- ==== Proof.KernelResult.lean ====
/-
  The kernel program's result.  After the region the one remaining host line views the [50000, 128] output as
  [100000, 64] again.  So the result buffer ends at that view of the packed output of the five operand arrays, and those
  are the host prefix's terms of the arguments: the result as ONE term of the argument arrays, the arguments unchanged.
-/
import proofs.«135414_j72619307041226_2_alg».proof.Proof.Gen.KernelIdeal.Frame
import proofs.«135414_j72619307041226_2_alg».proof.Proof.PackedFinal
import proofs.«135414_j72619307041226_2_alg».proof.Proof.KernelOperands
import Idealize.ShloMosaic.Lib.StableHlo.Run
import Idealize.ShloMosaic.Lib.Pipeline.Value

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo
open Idealize.ShloMosaic.Pipeline (Dat)

section Tail
variable {F : FTy → Type} [FloatOps F]
variable (m : (ℓ : Loc nD τ sig) → Buf (Elt F) ℓ)

set_option maxHeartbeats 1000000 in
/-- The line after the region: the result buffer is the output array of the region viewed [100000, 64]. -/
theorem tail_result (c : Dev nD) :
    Pipeline.afterTail₀ cfgs (dats m) 0 (V0 m) [hostOps1] c main_v39
      = shapeCast S100000x64 ((dats m 0 c).arrAt 5 cfg0.N) Facts₀.shapeCasts_S50000x128_S100000x64 := by
  unfold Pipeline.afterTail₀
  show StableHlo.after hostOps1 _ (Proc.devRef .tc main_v39) = _
  after_results
  have hw := Pipeline.withArrays_arr spec0 launch0.win.arr_inj c (V0 m c) (fun w => (dats m 0 c).arrAt w cfg0.N) 5
  exact congrArg (fun a => shapeCast S100000x64 a Facts₀.shapeCasts_S50000x128_S100000x64) hw

end Tail

variable (m : (ℓ : Loc nD τ sig) → Buf (Elt Ideal) ℓ) (ρ : Dev nD → PrngReg)

/-- The kernel's result as a term of the argument arrays. -/
def value (x : FVec Ideal S100000x64 .f32) (src dst : IVec S1600000 32) (W : FVec Ideal S64x64 .f32) (b : FVec Ideal S64 .f32) :
    FVec Ideal S100000x64 .f32 :=
  shapeCast S100000x64
    (Packed.packed (shapeCast S50000x128 (Operands.neigh (F := Ideal) x src dst) Facts₀.shapeCasts_S100000x64_S50000x128)
      (shapeCast S50000x128 x Facts₀.shapeCasts_S100000x64_S50000x128)
      (shapeCast S50000x2 (Operands.recip (F := Ideal) dst) Facts₀.shapeCasts_S100000_S50000x2)
      (Operands.wbd (F := Ideal) W) (Operands.brow (F := Ideal) b))
    Facts₀.shapeCasts_S50000x128_S100000x64

/-- The region's output array, as the packed output of the host prefix's terms. -/
theorem output_eq (c : Dev nD) :
    shapeCast S100000x64 ((dats m 0 c).arrAt 5 cfg0.N) Facts₀.shapeCasts_S50000x128_S100000x64
      = value (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [Packed.final m c, Operands.operand_neigh, Operands.operand_feat, Operands.operand_recip, Operands.operand_weight,
    Operands.operand_bias]
  rfl

/-- THE KERNEL'S RUN: every weakly fair execution terminates with the result buffer at `value` of the arguments and the
    arguments unchanged. -/
theorem run : θ_run defs (onTc (τ := τ) (main (F := Ideal))) ⟨m, fun _ => 0, ρ⟩ (fun r => ∀ c : Dev nD,
      r.2.mem ((c.tc : Thread nD τ).loc main_v39)
        = value (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).2 main_v39 (Pipeline.mem_restRefs_of main_v39 (by decide) (by decide))).trans (tail_result m c)).trans (output_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Result

end
-- ==== Proof.DestinationsInRange.lean ====
/-
  The destination array of the edge list, read back from the precondition.

  The precondition is a conjunction of one-bit words; its last conjunct is the conjunction, over every edge e, of the
  signed comparison dst[e] ≥ 0. When the whole precondition is the word 1, every conjunct is 1, so every element of the
  comparison array is 1, and a signed comparison that is 1 says of its operands what it reads: 0 ≤ dst[e], read signed
  (`dst_nonneg`).

  An index that is not negative is not changed by the wrap "i < 0 ? i + n : i" that counts a negative index from the
  end of an axis: the comparison i < 0 is the word 0 at every position, and a select on 0 is its second branch
  (`wrap_eq_self`).
-/
import proofs.«135414_j72619307041226_2_alg».proof.Pre_finite_inputs
import proofs.«135414_j72619307041226_2_alg».proof.Proof.Gen.Pre_finite_inputs
import Idealize.ShloMosaic.Lib.ReduceAll
import Idealize.ShloMosaic.Lib.DynamicIndex
import Idealize.ShloMosaic.Lib.Affine
import Idealize.ShloMosaic.Lib.ValueIdx

noncomputable section

namespace Cert.Proof.Destinations

open Idealize.ShloMosaic Idealize.ShloMosaic.ValueIdx

/-- The scalar shape has one index. -/
instance subsingleton_scalar_idx : Subsingleton Cert.Pre_finite_inputs.S_.Idx :=
  ⟨fun a b => funext fun d => d.elim0⟩

section Pre

variable [Cert.Pre_finite_inputs.Facts]

/-- Under the precondition every destination is nonnegative, read signed. -/
theorem dst_nonneg {F : FTy → Type} [FloatOps F]
    (x : FVec F Cert.Pre_finite_inputs.S100000x64 .f32) (src dst : IVec Cert.Pre_finite_inputs.S1600000 32)
    (W : FVec F Cert.Pre_finite_inputs.S64x64 .f32) (b : FVec F Cert.Pre_finite_inputs.S64 .f32)
    (h : Cert.Pre_finite_inputs.fn (F := F) x src dst W b = fun _ => 1#1) :
    ∀ e : Cert.Pre_finite_inputs.S1600000.Idx, 0 ≤ (dst e).toInt := by
  intro e
  -- the precondition's one word
  have h0 := congrFun h ix0
  dsimp only [Cert.Pre_finite_inputs.fn, Cert.Pre_finite_inputs.fn_part1] at h0
  -- its last conjunct: the conjunction over all edges of dst[e] ≥ 0
  have h1 := (IntOp.andi_eq_one.1 h0).2
  -- every element of the comparison array is 1
  have h2 := Host.reduce_andi_all _ _ _ _ _ h1 e
  -- the comparison at e, read back: (the broadcast of 0 at e) ≤ dst[e], signed
  have h3 := IntOp.cmpi_sge.1 h2
  have hz : (broadcastInDim Cert.Pre_finite_inputs.S1600000 ![] Cert.Pre_finite_inputs.Facts.bcast_S_S1600000
      (constantI Cert.Pre_finite_inputs.S_ 32 0#32) e) = 0#32 := rfl
  rw [hz, BitVec.toInt_zero] at h3
  exact h3

end Pre

/-- The wrap of an index array none of whose elements is negative is the array: where `z` is 0 everywhere,
    `dst < z ? dst + n : dst` is `dst`. -/
theorem wrap_eq_self {s : Shape} (dst : IVec s 32) (z n : IVec s 32) (hz : ∀ e, z e = 0#32)
    (hd : ∀ e, 0 ≤ (dst e).toInt) : select (cmpi .slt dst z) (addi dst n) dst = dst := by
  funext e
  rw [select_apply]
  have hc : cmpi .slt dst z e = 0#1 := by
    refine eq_zero_of_ne_one fun h1 => ?_
    have hlt : (dst e).toInt < (z e).toInt := IntOp.cmpi_slt.1 h1
    rw [hz e, BitVec.toInt_zero] at hlt
    exact absurd (hd e) (Int.not_le.2 hlt)
  rw [hc, select_zero]

end Cert.Proof.Destinations

end
-- ==== Proof.PackedViews.lean ====
/-
  Two nodes per packed row.  Viewing a [100000, 64] array as [50000, 128] (same row-major order) puts node i in packed
  row i / 2, in the left half of the lanes when i is even and the right half when i is odd: entry (i, k) sits at packed
  row i / 2, lane (i mod 2) * 64 + k.  Viewing a [100000] vector as [50000, 2] puts entry i at (i / 2, i mod 2).
-/
import proofs.«135414_j72619307041226_2_alg».proof.Proof.Gen.KernelIdeal
import Idealize.ShloMosaic.Lib.Pipeline.Value
import Idealize.ShloMosaic.Lib.ValueIdx

noncomputable section

namespace Cert.KernelIdeal.Views

open Cert.KernelIdeal Idealize.ShloMosaic Idealize.ShloMosaic.ValueIdx

variable {α : Type}

/-- The packed row of node i. -/
def prow (i : Fin 100000) : Fin 50000 := ⟨i.val / 2, by have := i.isLt; omega⟩
/-- Which half of the lanes node i occupies. -/
def half (i : Fin 100000) : Fin 2 := ⟨i.val % 2, by omega⟩
/-- Lane of feature j in half u. -/
def lane (u : Fin 2) (j : Fin 64) : Fin 128 := ⟨u.val * 64 + j.val, by have := u.isLt; have := j.isLt; omega⟩

/-- The [50000, 128] array viewed [100000, 64], read at (i, j). -/
theorem unpack_apply (G : S50000x128.Idx → α) (h : S50000x128.ShapeCasts S100000x64) (i : Fin 100000) (j : Fin 64) :
    shapeCast S100000x64 G h (ix2 i j) = G (ix2 (prow i) (lane (half i) j)) :=
  shapeCast_apply G h (ix2 i j) (ix2 (prow i) (lane (half i) j)) (by
    rw [Shape.rowMajor_val_two, Shape.rowMajor_val_two]
    show (i.val / 2) * 128 + ((i.val % 2) * 64 + j.val) = i.val * 64 + j.val
    omega)

/-- The [100000, 64] array viewed [50000, 128], read where node i's feature k sits. -/
theorem pack_apply (A : S100000x64.Idx → α) (h : S100000x64.ShapeCasts S50000x128) (i : Fin 100000) (k : Fin 64) :
    shapeCast S50000x128 A h (ix2 (prow i) (lane (half i) k)) = A (ix2 i k) :=
  shapeCast_apply A h (ix2 (prow i) (lane (half i) k)) (ix2 i k) (by
    rw [Shape.rowMajor_val_two, Shape.rowMajor_val_two]
    show i.val * 64 + k.val = (i.val / 2) * 128 + ((i.val % 2) * 64 + k.val)
    omega)

/-- The [100000] vector viewed [50000, 2], read where node i sits. -/
theorem pack_vec_apply (r : S100000.Idx → α) (h : S100000.ShapeCasts S50000x2) (i : Fin 100000) :
    shapeCast S50000x2 r h (ix2 (prow i) (half i)) = r (ix1 i) :=
  shapeCast_apply r h (ix2 (prow i) (half i)) (ix1 i) (by
    rw [Shape.rowMajor_val_one, Shape.rowMajor_val_two]
    show i.val = (i.val / 2) * 2 + i.val % 2
    omega)

/-- A lane of half u is in the right half of the lanes exactly when u = 1. -/
theorem lane_right (u : Fin 2) (j : Fin 64) : 64 ≤ (lane u j).val ↔ u.val = 1 := by
  have := u.isLt; have := j.isLt
  show 64 ≤ u.val * 64 + j.val ↔ u.val = 1
  omega

/-- The half a lane of half u belongs to is u. -/
theorem lane_div (u : Fin 2) (k : Fin 64) : (lane u k).val / 64 = u.val := by
  have := u.isLt; have := k.isLt
  show (u.val * 64 + k.val) / 64 = u.val
  omega

end Cert.KernelIdeal.Views

end
-- ==== Proof.PackedOperands.lean ====
/-
  The packed weight and bias operands, read at an entry.

  The weight operand is the 128 x 128 block matrix [[W^T, 0], [0, W^T]], built by concatenating, along the rows, the
  two 64 x 128 strips [W^T, 0] and [0, W^T], each the concatenation along the columns of two 64 x 64 blocks. An entry
  in the first strip reads that strip at the same coordinates, one in the second strip at the row less 64; likewise
  for the columns inside a strip. So a diagonal block (row block u, column block u) at (k, j) is W^T at (k, j), which
  is W at (j, k) (`wbd_diag`), and an off-diagonal block is the zero constant (`wbd_off`).

  The bias operand is the row [b, b] of 128 entries viewed as a 1 x 128 array: at lane u * 64 + j it is b at j
  (`brow_lane`).
-/
import proofs.«135414_j72619307041226_2_alg».proof.Proof.KernelOperands
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.PackedOperands

open Cert.KernelIdeal Cert.KernelIdeal.Operands Idealize.ShloMosaic Idealize.ShloMosaic.ValueIdx

/-- The zero block, read anywhere, is the extended real zero. -/
theorem zero_block (i : S64x64.Idx) :
    (broadcastInDim S64x64 ![] Facts₀.bcast_S_S64x64 (constant (F := Ideal) S_ .f32 0x00000000#32)) i = (0 : EReal) := by
  rw [broadcastInDim_scalar_apply]
  exact Ideal.ofBits_zero_f32

/-- Top-left block: rows and columns below 64. -/
theorem wbd_tl (W : FVec Ideal S64x64 .f32) (k j : Fin 64) (K J : Fin 128) (hK : K.val = k.val) (hJ : J.val = j.val) :
    wbd (F := Ideal) W (ix2 K J) = W (ix2 j k) := by
  unfold wbd
  refine (concatenate_pair_apply_left (t := S128x128) (s₁ := S64x128) (s₂ := S64x128) (0 : Fin 2) _ _ _ (ix2 K J) rfl (ix2 k J)
    (fun b => match b with | ⟨0, _⟩ => hK.symm | ⟨1, _⟩ => rfl)).trans ?_
  refine (concatenate_pair_apply_left (t := S64x128) (s₁ := S64x64) (s₂ := S64x64) (1 : Fin 2) _ _ _ (ix2 k J) rfl (ix2 k j)
    (fun b => match b with | ⟨0, _⟩ => rfl | ⟨1, _⟩ => hJ.symm)).trans ?_
  exact transpose_ix2_apply W _ k j

/-- Bottom-right block: rows and columns from 64 on. -/
theorem wbd_br (W : FVec Ideal S64x64 .f32) (k j : Fin 64) (K J : Fin 128) (hK : K.val = 64 + k.val)
    (hJ : J.val = 64 + j.val) : wbd (F := Ideal) W (ix2 K J) = W (ix2 j k) := by
  unfold wbd
  refine (concatenate_pair_apply_right (t := S128x128) (s₁ := S64x128) (s₂ := S64x128) (0 : Fin 2) _ _ _ (ix2 K J) rfl rfl (ix2 k J)
    (fun b => match b with | ⟨0, _⟩ => fun hne => absurd rfl hne | ⟨1, _⟩ => fun _ => rfl)
    (by show k.val + 64 = K.val; omega)).trans ?_
  refine (concatenate_pair_apply_right (t := S64x128) (s₁ := S64x64) (s₂ := S64x64) (1 : Fin 2) _ _ _ (ix2 k J) rfl rfl (ix2 k j)
    (fun b => match b with | ⟨0, _⟩ => fun _ => rfl | ⟨1, _⟩ => fun hne => absurd rfl hne)
    (by show j.val + 64 = J.val; omega)).trans ?_
  exact transpose_ix2_apply W _ k j

/-- Top-right block: rows below 64, columns from 64 on. -/
theorem wbd_tr (W : FVec Ideal S64x64 .f32) (k j : Fin 64) (K J : Fin 128) (hK : K.val = k.val)
    (hJ : J.val = 64 + j.val) : wbd (F := Ideal) W (ix2 K J) = (0 : EReal) := by
  unfold wbd
  refine (concatenate_pair_apply_left (t := S128x128) (s₁ := S64x128) (s₂ := S64x128) (0 : Fin 2) _ _ _ (ix2 K J) rfl (ix2 k J)
    (fun b => match b with | ⟨0, _⟩ => hK.symm | ⟨1, _⟩ => rfl)).trans ?_
  refine (concatenate_pair_apply_right (t := S64x128) (s₁ := S64x64) (s₂ := S64x64) (1 : Fin 2) _ _ _ (ix2 k J) rfl rfl (ix2 k j)
    (fun b => match b with | ⟨0, _⟩ => fun _ => rfl | ⟨1, _⟩ => fun hne => absurd rfl hne)
    (by show j.val + 64 = J.val; omega)).trans ?_
  exact zero_block _

/-- Bottom-left block: rows from 64 on, columns below 64. -/
theorem wbd_bl (W : FVec Ideal S64x64 .f32) (k j : Fin 64) (K J : Fin 128) (hK : K.val = 64 + k.val)
    (hJ : J.val = j.val) : wbd (F := Ideal) W (ix2 K J) = (0 : EReal) := by
  unfold wbd
  refine (concatenate_pair_apply_right (t := S128x128) (s₁ := S64x128) (s₂ := S64x128) (0 : Fin 2) _ _ _ (ix2 K J) rfl rfl (ix2 k J)
    (fun b => match b with | ⟨0, _⟩ => fun hne => absurd rfl hne | ⟨1, _⟩ => fun _ => rfl)
    (by show k.val + 64 = K.val; omega)).trans ?_
  refine (concatenate_pair_apply_left (t := S64x128) (s₁ := S64x64) (s₂ := S64x64) (1 : Fin 2) _ _ _ (ix2 k J) rfl (ix2 k j)
    (fun b => match b with | ⟨0, _⟩ => rfl | ⟨1, _⟩ => hJ.symm)).trans ?_
  exact zero_block _

/-- A diagonal block of the weight operand is W^T: at (u * 64 + k, u * 64 + j) it is W at (j, k). -/
theorem wbd_diag (W : FVec Ideal S64x64 .f32) (u : Fin 2) (k j : Fin 64) :
    wbd (F := Ideal) W (ix2 (⟨u.val * 64 + k.val, by have := u.isLt; have := k.isLt; omega⟩ : Fin 128) (⟨u.val * 64 + j.val, by have := u.isLt; have := j.isLt; omega⟩ : Fin 128)) = W (ix2 j k) := by
  match u with
  | ⟨0, _⟩ => exact wbd_tl W k j _ _ (by show 0 * 64 + k.val = k.val; omega) (by show 0 * 64 + j.val = j.val; omega)
  | ⟨1, _⟩ => exact wbd_br W k j _ _ (by show 1 * 64 + k.val = 64 + k.val; omega) (by show 1 * 64 + j.val = 64 + j.val; omega)

/-- An off-diagonal block of the weight operand is zero. -/
theorem wbd_off (W : FVec Ideal S64x64 .f32) (u : Fin 2) (k' : Fin 128) (j : Fin 64) (h : k'.val / 64 ≠ u.val) :
    wbd (F := Ideal) W (ix2 k' (⟨u.val * 64 + j.val, by have := u.isLt; have := j.isLt; omega⟩ : Fin 128)) = (0 : EReal) := by
  have hk := k'.isLt
  match u, h with
  | ⟨0, _⟩, h =>
    have h64 : 64 ≤ k'.val := by
      have h' : k'.val / 64 ≠ 0 := h
      omega
    exact wbd_bl W ⟨k'.val - 64, by omega⟩ j _ _ (by show k'.val = 64 + (k'.val - 64); omega)
      (by show 0 * 64 + j.val = j.val; omega)
  | ⟨1, _⟩, h =>
    have h64 : k'.val < 64 := by
      have h' : k'.val / 64 ≠ 1 := h
      omega
    exact wbd_tr W ⟨k'.val, h64⟩ j _ _ rfl (by show 1 * 64 + j.val = 64 + j.val; omega)

/-- The bias row at a lane below 64. -/
theorem brow_lo (b : FVec Ideal S64 .f32) (j : Fin 64) (Q : Fin 128) (hQ : Q.val = j.val) :
    brow (F := Ideal) b (ix2 (0 : Fin 1) Q) = b (ix1 j) := by
  unfold brow
  refine (shapeCast_a_1a_apply _ _ (0 : Fin 1) Q).trans ?_
  exact concatenate_pair_apply_left (t := S128) (s₁ := S64) (s₂ := S64) (0 : Fin 1) _ _ _ (ix1 Q) rfl (ix1 j)
    (fun c => match c with | ⟨0, _⟩ => hQ.symm)

/-- The bias row at a lane from 64 on. -/
theorem brow_hi (b : FVec Ideal S64 .f32) (j : Fin 64) (Q : Fin 128) (hQ : Q.val = 64 + j.val) :
    brow (F := Ideal) b (ix2 (0 : Fin 1) Q) = b (ix1 j) := by
  unfold brow
  refine (shapeCast_a_1a_apply _ _ (0 : Fin 1) Q).trans ?_
  exact concatenate_pair_apply_right (t := S128) (s₁ := S64) (s₂ := S64) (0 : Fin 1) _ _ _ (ix1 Q) rfl rfl (ix1 j)
    (fun c => match c with | ⟨0, _⟩ => fun hne => absurd rfl hne)
    (by show j.val + 64 = Q.val; omega)

/-- The bias operand at lane u * 64 + j is b at j. -/
theorem brow_lane (b : FVec Ideal S64 .f32) (u : Fin 2) (j : Fin 64) :
    brow (F := Ideal) b (ix2 (0 : Fin 1) (⟨u.val * 64 + j.val, by have := u.isLt; have := j.isLt; omega⟩ : Fin 128)) = b (ix1 j) := by
  match u with
  | ⟨0, _⟩ => exact brow_lo b j _ (by show 0 * 64 + j.val = j.val; omega)
  | ⟨1, _⟩ => exact brow_hi b j _ (by show 1 * 64 + j.val = 64 + j.val; omega)

end Cert.KernelIdeal.PackedOperands

end
-- ==== Proof.LibNonnegScale.lean ====
/-
  Scaling a sum of extended reals by a real that is not negative, and a block-diagonal row.

  The extended reals are not a ring: a product does not distribute over a sum in general (⊤ + ⊥ is ⊥). It does when the
  factor is a real that is not negative, whatever the summands are, infinite or not: `sum_mul_nonneg`, a finite sum times
  such a real is the sum of the products. Division by a positive real d is multiplication by the real 1 / d, so a row of
  products s k * w k, summed and then divided by d, is the row with each s k divided by d first: `scaled_row`. No
  hypothesis says any element is finite.

  A sum over 128 indices is the sum over the first 64 plus the sum over the last 64 (`sum_fin128_halves`); when the
  second factor of each product vanishes off the half numbered u, the sum of the 128 products is the sum over that half
  (`blockdiag_row`): a product with zero is zero on the extended reals, at the infinities too.
-/
import Idealize.ShloMosaic.PureOps.Ideal
import Idealize.ShloMosaic.Lib.IdealHost

noncomputable section

open scoped BigOperators

namespace Idealize.ShloMosaic.NonnegScale

open Idealize.ShloMosaic

/-- A finite sum of extended reals times a real that is not negative is the sum of the products. -/
theorem sum_mul_nonneg {ι : Type} (S : Finset ι) (f : ι → EReal) (r : ℝ) (hr : 0 ≤ r) :
    (∑ i ∈ S, f i) * (r : EReal) = ∑ i ∈ S, f i * (r : EReal) := by
  classical
  induction S using Finset.induction_on with
  | empty => rw [Finset.sum_empty, Finset.sum_empty, zero_mul]
  | insert a S ha ih =>
    rw [Finset.sum_insert ha, Finset.sum_insert ha,
      EReal.right_distrib_of_nonneg_of_ne_top (EReal.coe_nonneg.2 hr) (EReal.coe_ne_top r), ih]

/-- A row of products, summed and then divided by a positive real, is the row whose first factors are divided first. -/
theorem scaled_row {ι : Type} [Fintype ι] (s w : ι → EReal) (d : ℝ) (hd : 0 < d) :
    (∑ k, s k * w k) * Ideal.div 1 (d : EReal) = ∑ k, Ideal.div (s k) (d : EReal) * w k := by
  have hne : d ≠ 0 := ne_of_gt hd
  have hr : (0 : ℝ) ≤ 1 / d := le_of_lt (one_div_pos.2 hd)
  rw [Ideal.div_coe hne, one_mul, sum_mul_nonneg _ _ _ hr]
  refine Finset.sum_congr rfl fun k _ => ?_
  rw [Ideal.div_coe hne, mul_right_comm]

/-- A sum over 128 indices is the sum over the first 64 plus the sum over the last 64. -/
theorem sum_fin128_halves {M : Type} [AddCommMonoid M] (f : Fin 128 → M) :
    ∑ k : Fin 128, f k = (∑ k : Fin 64, f ⟨k.val, by omega⟩) + ∑ k : Fin 64, f ⟨64 + k.val, by omega⟩ :=
  Fin.sum_univ_add (a := 64) (b := 64) f

/-- A row of 128 products whose second factors vanish off the half numbered `u` is the sum over that half. -/
theorem blockdiag_row (g : Fin 128 → EReal) (h : Fin 128 → EReal) (u : Fin 2)
    (hz : ∀ k : Fin 128, k.val / 64 ≠ u.val → h k = 0) :
    ∑ k : Fin 128, g k * h k
      = ∑ k : Fin 64, g ⟨u.val * 64 + k.val, by have := u.isLt; omega⟩ * h ⟨u.val * 64 + k.val, by have := u.isLt; omega⟩ := by
  rw [sum_fin128_halves]
  obtain ⟨uv, hu⟩ := u
  have hcase : uv = 0 ∨ uv = 1 := by omega
  rcases hcase with rfl | rfl
  · -- the half 64 ≤ k vanishes
    have h2 : (∑ k : Fin 64, g ⟨64 + k.val, by omega⟩ * h ⟨64 + k.val, by omega⟩) = 0 :=
      Finset.sum_eq_zero fun k _ => by
        rw [hz ⟨64 + k.val, by omega⟩ (by show (64 + k.val) / 64 ≠ 0; omega), mul_zero]
    rw [h2, add_zero]
    refine Finset.sum_congr rfl fun k _ => ?_
    simp only [zero_mul, zero_add]
  · -- the half k < 64 vanishes
    have h1 : (∑ k : Fin 64, g ⟨k.val, by omega⟩ * h ⟨k.val, by omega⟩) = 0 :=
      Finset.sum_eq_zero fun k _ => by
        rw [hz ⟨k.val, by omega⟩ (by show k.val / 64 ≠ 1; omega), mul_zero]
    rw [h1, zero_add]
    refine Finset.sum_congr rfl fun k _ => ?_
    simp only [one_mul]

end Idealize.ShloMosaic.NonnegScale

end
-- ==== Proof.KernelEntry.lean ====
/-
  The kernel program's result at one entry (i, j).  Node i sits in packed row i / 2, half u = i mod 2.  Only the rows of the
  block-diagonal weight in half u meet the columns of half u, so the 128-term product collapses to the 64 terms of node i
  against W^T; the lane select picks the reciprocal degree of node i; the doubled bias read at lane u * 64 + j is b(j):

      result(i, j) = (sum over k < 64 of (n(i,k) + x(i,k)) * W(j,k)) * r(i) + b(j).
-/
import proofs.«135414_j72619307041226_2_alg».proof.Proof.KernelResult
import proofs.«135414_j72619307041226_2_alg».proof.Proof.PackedViews
import proofs.«135414_j72619307041226_2_alg».proof.Proof.PackedOperands
import proofs.«135414_j72619307041226_2_alg».proof.Proof.LibNonnegScale

set_option maxRecDepth 16384

noncomputable section

namespace Cert.KernelIdeal.Entry

open Cert.KernelIdeal Idealize.ShloMosaic Idealize.ShloMosaic.ValueIdx
open Cert.KernelIdeal.Views

/-- The reciprocal the lane select picks for a lane of node i's half is node i's. -/
theorem picked_recip (r : S100000.Idx → EReal) (h : S100000.ShapeCasts S50000x2) (i : Fin 100000) (j : Fin 64) :
    (if 64 ≤ (lane (half i) j).val then shapeCast S50000x2 r h (ix2 (prow i) (1 : Fin 2))
      else shapeCast S50000x2 r h (ix2 (prow i) (0 : Fin 2))) = r (ix1 i) := by
  have hR := pack_vec_apply r h i
  have hu := lane_right (half i) j
  by_cases h1 : (half i).val = 1
  · rw [if_pos (hu.mpr h1)]
    have e : half i = (1 : Fin 2) := Fin.ext h1
    rw [e] at hR
    exact hR
  · have h0 : (half i).val = 0 := by have := (half i).isLt; omega
    rw [if_neg (fun hh => h1 (hu.mp hh))]
    have e : half i = (0 : Fin 2) := Fin.ext h0
    rw [e] at hR
    exact hR

/-- THE KERNEL PROGRAM'S RESULT AT AN ENTRY. -/
theorem value_apply (x : FVec Ideal S100000x64 .f32) (src dst : IVec S1600000 32) (W : FVec Ideal S64x64 .f32)
    (b : FVec Ideal S64 .f32) (i : Fin 100000) (j : Fin 64) :
    Result.value x src dst W b (ix2 i j)
      = (∑ k : Fin 64, (Operands.neigh (F := Ideal) x src dst (ix2 i k) + x (ix2 i k)) * W (ix2 j k))
          * Operands.recip (F := Ideal) dst (ix1 i) + b (ix1 j) := by
  unfold Result.value
  rw [unpack_apply, Packed.packed_ix2]
  unfold Packed.entry
  refine congrArg₂ (· + ·) (congrArg₂ (· * ·) ?_ ?_) ?_
  · refine (NonnegScale.blockdiag_row
      (fun k' : Fin 128 =>
        shapeCast S50000x128 (Operands.neigh (F := Ideal) x src dst) Facts₀.shapeCasts_S100000x64_S50000x128 (ix2 (prow i) k')
          + shapeCast S50000x128 x Facts₀.shapeCasts_S100000x64_S50000x128 (ix2 (prow i) k'))
      (fun k' : Fin 128 => Operands.wbd (F := Ideal) W (ix2 k' (lane (half i) j)))
      (half i) (fun k' hk => PackedOperands.wbd_off W (half i) k' j hk)).trans ?_
    refine Finset.sum_congr rfl fun k _ => ?_
    have e1 := pack_apply (Operands.neigh (F := Ideal) x src dst) Facts₀.shapeCasts_S100000x64_S50000x128 i k
    have e2 := pack_apply x Facts₀.shapeCasts_S100000x64_S50000x128 i k
    have e3 := PackedOperands.wbd_diag W (half i) k j
    exact congrArg₂ (· * ·) (congrArg₂ (· + ·) e1 e2) e3
  · exact picked_recip (Operands.recip (F := Ideal) dst) Facts₀.shapeCasts_S100000_S50000x2 i j
  · exact PackedOperands.brow_lane b (half i) j

end Cert.KernelIdeal.Entry

end
-- ==== Proof.ReferenceRows.lean ====
/-
  The reference's result, read at one entry.

  The reference computes, for node i and output feature j,
      out[i, j] = (Σ_k ((agg[i, k] + x[i, k]) / deg1[i]) * W[j, k]) + b[j],
  where agg is the scatter of the gathered neighbour rows into zeros (the stage of the first scatter) and deg1 is the
  scatter of ones plus one (the stage after the second scatter). Both scatter stages are kept as the named stages; all
  the other operations — the two sums, the quotient, the broadcasts, the transpose and the contraction — are read at
  the index: a broadcast reads its operand at the kept coordinates, the transpose swaps the two, and the contraction is
  the sum over the shared coordinate k of the products.
-/
import proofs.«135414_j72619307041226_2_alg».proof.Proof.Gen.ReferenceIdeal.Read
import Idealize.ShloMosaic.Lib.ValueIdx
import Idealize.ShloMosaic.Lib.IdealHost

set_option maxRecDepth 16384

noncomputable section

open scoped BigOperators

namespace Cert.ReferenceIdeal.Rows

open Cert.ReferenceIdeal Cert.ReferenceIdeal.Read Idealize.ShloMosaic Idealize.ShloMosaic.ValueIdx

/-- The bias is read at the output feature: the two broadcasts keep coordinate 1. -/
theorem idx_bias (i : Fin 100000) (j : Fin 64) : idx_main_v22 (idx_main_v23 (ix2 i j)) = ix1 j :=
  funext fun a => Fin.ext (by match a with | ⟨0, _⟩ => rfl)

/-- The contraction's left operand at k: row i, column k. -/
theorem idx_lhs (i : Fin 100000) (j k : Fin 64) : lidx_main_v21 (ix2 i j) k = ix2 i k :=
  funext fun a => Fin.ext (by match a with | ⟨0, _⟩ => rfl | ⟨1, _⟩ => rfl)

/-- The contraction's right operand at k, through the transpose: W at (j, k). -/
theorem idx_rhs (i : Fin 100000) (j k : Fin 64) : idx_main_v20 (ridx_main_v21 (ix2 i j) k) = ix2 j k :=
  funext fun a => Fin.ext (by match a with | ⟨0, _⟩ => rfl | ⟨1, _⟩ => rfl)

/-- The divisor is read at the node: the two broadcasts keep coordinate 0. -/
theorem idx_deg (i : Fin 100000) (k : Fin 64) : idx_main_v17 (idx_main_v18 (ix2 i k)) = ix1 i :=
  funext fun a => Fin.ext (by match a with | ⟨0, _⟩ => rfl)

/-- The reference's result at (i, j). -/
theorem result_apply (x : FVec Ideal S100000x64 .f32) (src dst : IVec S1600000 32) (W : FVec Ideal S64x64 .f32)
    (b : FVec Ideal S64 .f32) (i : Fin 100000) (j : Fin 64) :
    val_main_v24 (F := Ideal) x src dst W b (ix2 i j)
      = (∑ k : Fin 64, Ideal.div (val_main_v9 (F := Ideal) x src dst (ix2 i k) + x (ix2 i k))
          (val_main_v16 (F := Ideal) dst (ix1 i)) * W (ix2 j k)) + b (ix1 j) := by
  -- the outer sum, the contraction and the bias's two broadcasts, read at (i, j)
  rw [val_main_v24_apply, val_main_v21_apply, val_main_v23_apply, val_main_v22_apply, idx_bias]
  -- the ideal sum of two extended reals is their sum: compare the contraction's terms
  refine congrArg (fun t : EReal => t + b (ix1 j)) ?_
  refine Finset.sum_congr rfl fun k _ => ?_
  -- the quotient, the inner sum, the divisor's two broadcasts and the transpose, read at k
  rw [val_main_v19_apply, val_main_v14_apply, val_main_v18_apply, val_main_v17_apply, val_main_v20_apply,
    idx_lhs, idx_rhs, idx_deg]
  -- the ideal sum and quotient are the extended reals' sum and division
  rfl

end Cert.ReferenceIdeal.Rows

end
-- ==== Proof.LibScatterCount.lean ====
/-
  A scatter-add of ones into zeros counts.

  The exact (extended-real) scatter with an `add` body puts at each operand index `i` the operand's element plus the
  sum of the update elements whose result index is `i`. With the operand zero everywhere and every update element one,
  that sum has one term `1` per update index landing on `i`, so the result at `i` is the NUMBER of update indices
  landing on `i`, a natural number read as a real (`hostScatterAdd_ones`). Hence one more than it is a positive real
  (`hostScatterAdd_ones_add_one_pos`): a degree plus one is a divisor that is neither zero nor infinite. Stated for
  every operand, index and update shape, every scatter dimension record and every index width.

  Last, the 32-bit float pattern 0x3F800000 denotes the extended real one (`ofBits_one_f32`).
-/
import Idealize.ShloMosaic.PureOps.Ideal
import Idealize.ShloMosaic.Lib.IdealHost

noncomputable section

open scoped BigOperators

namespace Idealize.ShloMosaic.ScatterCount

open Idealize.ShloMosaic

variable {s si su : Shape} (d : ScatterDims s si su) {w : Nat} (idx : IVec si w)

/-- A sum of `n` ones in the extended reals is the natural number `n`, read as a real. -/
theorem sum_ones {ι : Type} (S : Finset ι) : (∑ _j ∈ S, (1 : EReal)) = ((S.card : ℝ) : EReal) := by
  rw [Finset.sum_const, ← EReal.coe_one, ← EReal.coe_nsmul, nsmul_eq_mul, mul_one]

/-- Scattering ones into zeros with `add`: the result at `i` is the number of update indices whose result index is `i`. -/
theorem hostScatterAdd_ones (i : s.Idx) :
    Ideal.hostScatterAdd d (fun _ => (0 : EReal)) idx (fun _ => (1 : EReal)) i
      = (((Finset.univ.filter (fun j => d.resultIdx? j idx = some i)).card : ℝ) : EReal) := by
  unfold Ideal.hostScatterAdd
  rw [zero_add, sum_ones]

/-- One more than that count is a positive real. -/
theorem hostScatterAdd_ones_add_one_pos (i : s.Idx) :
    ∃ r : ℝ, 0 < r ∧ Ideal.hostScatterAdd d (fun _ => (0 : EReal)) idx (fun _ => (1 : EReal)) i + 1 = (r : EReal) := by
  refine ⟨((Finset.univ.filter (fun j => d.resultIdx? j idx = some i)).card : ℝ) + 1, ?_, ?_⟩
  · have h : (0 : ℝ) ≤ ((Finset.univ.filter (fun j => d.resultIdx? j idx = some i)).card : ℝ) := Nat.cast_nonneg _
    linarith
  · rw [hostScatterAdd_ones, EReal.coe_add, EReal.coe_one]

/-- The f32 pattern `0x3F800000` is the extended real one. -/
theorem ofBits_one_f32 : Ideal.ofBits .f32 0x3F800000#32 = (1 : EReal) := Ideal.ofBits_one_f32

end Idealize.ShloMosaic.ScatterCount

end
-- ==== Proof.ReferenceScaled.lean ====
/-
  The reference's result with the division by the degree moved out of the contraction.

  The divisor deg1[i] is the scatter of ones into zeros, plus one: the number of edges whose destination is i, plus
  one, a positive real (`degree_pos`). Division by a positive real is multiplication by a real that is not negative,
  which distributes over a sum of extended reals whatever the summands are, so
      Σ_k ((agg[i, k] + x[i, k]) / deg1[i]) * W[j, k]  =  (Σ_k (agg[i, k] + x[i, k]) * W[j, k]) * (1 / deg1[i])
  and the reference's result at (i, j) is the right-hand side plus b[j] (`result_scaled`). No element is assumed finite.
-/
import proofs.«135414_j72619307041226_2_alg».proof.Proof.ReferenceRows
import proofs.«135414_j72619307041226_2_alg».proof.Proof.LibScatterCount
import proofs.«135414_j72619307041226_2_alg».proof.Proof.LibNonnegScale

set_option maxRecDepth 16384

noncomputable section

open scoped BigOperators

namespace Cert.ReferenceIdeal.Scaled

open Cert.ReferenceIdeal Cert.ReferenceIdeal.Read Idealize.ShloMosaic Idealize.ShloMosaic.ValueIdx

/-- The array the degree scatter starts from is zero everywhere. -/
theorem zeros_eq : (val_main_v11 (F := Ideal) : S100000.Idx → EReal) = fun _ => (0 : EReal) := by
  funext i
  rw [val_main_v11_apply, val_main_cst_2_apply]
  exact Ideal.ofBits_zero_f32

/-- The updates of the degree scatter are one everywhere. -/
theorem ones_eq : (val_main_v10 (F := Ideal) : S1600000.Idx → EReal) = fun _ => (1 : EReal) := by
  funext e
  rw [val_main_v10_apply, val_main_cst_1_apply]
  exact Ideal.ofBits_one_f32

/-- The array added to the scattered counts is one everywhere. -/
theorem one_apply (i : S100000.Idx) : val_main_v15 (F := Ideal) i = (1 : EReal) := by
  rw [val_main_v15_apply, val_main_cst_3_apply]
  exact Ideal.ofBits_one_f32

/-- The scattered counts, as an array: the scatter of ones into zeros. -/
theorem counts_eq (dst : IVec S1600000 32) :
    val_main_v13 (F := Ideal) dst
      = Ideal.hostScatterAdd scatter_S100000_S1600000x1_S1600000_n_0_0_1 (fun _ => (0 : EReal))
          (val_main_v12 (F := Ideal) dst) (fun _ => (1 : EReal)) := by
  have e : val_main_v13 (F := Ideal) dst
      = Ideal.hostScatterAdd scatter_S100000_S1600000x1_S1600000_n_0_0_1 (val_main_v11 (F := Ideal))
          (val_main_v12 (F := Ideal) dst) (val_main_v10 (F := Ideal)) := rfl
  rw [e, zeros_eq, ones_eq]

/-- deg1[i] is a positive real: a count of edges plus one. -/
theorem degree_pos (dst : IVec S1600000 32) (i : Fin 100000) :
    ∃ r : ℝ, 0 < r ∧ val_main_v16 (F := Ideal) dst (ix1 i) = (r : EReal) := by
  obtain ⟨r, hr, e⟩ := ScatterCount.hostScatterAdd_ones_add_one_pos
    scatter_S100000_S1600000x1_S1600000_n_0_0_1 (val_main_v12 (F := Ideal) dst) (ix1 i)
  refine ⟨r, hr, ?_⟩
  rw [val_main_v16_apply, Ideal.addf_def, one_apply, counts_eq]
  exact e

/-- The reference's result at (i, j), the division by deg1[i] after the contraction. -/
theorem result_scaled (x : FVec Ideal S100000x64 .f32) (src dst : IVec S1600000 32) (W : FVec Ideal S64x64 .f32)
    (b : FVec Ideal S64 .f32) (i : Fin 100000) (j : Fin 64) :
    val_main_v24 (F := Ideal) x src dst W b (ix2 i j)
      = (∑ k : Fin 64, (val_main_v9 (F := Ideal) x src dst (ix2 i k) + x (ix2 i k)) * W (ix2 j k))
          * Ideal.div 1 (val_main_v16 (F := Ideal) dst (ix1 i)) + b (ix1 j) := by
  obtain ⟨r, hr, e⟩ := degree_pos dst i
  rw [Rows.result_apply, e]
  refine congrArg (fun t : EReal => t + b (ix1 j)) ?_
  exact (NonnegScale.scaled_row (fun k : Fin 64 => val_main_v9 (F := Ideal) x src dst (ix2 i k) + x (ix2 i k))
    (fun k : Fin 64 => W (ix2 j k)) r hr).symm

end Cert.ReferenceIdeal.Scaled

end
-- ==== Proof.SharedStages.lean ====
/-
  The two programs build the same neighbour sums and the same degree-plus-one — once destinations are not wrapped.
  The kernel program wraps BOTH index arrays the NumPy way before using them; the reference wraps the sources only and
  scatters at the destinations as given.  On destinations that are all non-negative the wrap is the identity, and then the
  kernel program's neighbour sums, degree + 1 and reciprocal are the reference's own stages, term for term (the two
  programs' dimension records carry the same data).
-/
import proofs.«135414_j72619307041226_2_alg».proof.Proof.KernelOperands
import proofs.«135414_j72619307041226_2_alg».proof.Proof.DestinationsInRange
import proofs.«135414_j72619307041226_2_alg».proof.Proof.Gen.ReferenceIdeal.Read
import Idealize.ShloMosaic.Lib.IdealHost

noncomputable section

namespace Cert.Proof.Shared

open Idealize.ShloMosaic Idealize.ShloMosaic.ValueIdx

section Generic
variable {F : FTy → Type} [FloatOps F]

/-- On non-negative destinations the wrap does nothing. -/
theorem wrap_dst (dst : IVec Cert.KernelIdeal.S1600000 32) (hd : ∀ e, 0 ≤ (dst e).toInt) :
    Cert.KernelIdeal.Operands.wrap dst = dst :=
  Cert.Proof.Destinations.wrap_eq_self dst _ _ (fun _ => rfl) hd

/-- The kernel program's neighbour sums are the reference's. -/
theorem neigh_eq (x : FVec F Cert.KernelIdeal.S100000x64 .f32) (src dst : IVec Cert.KernelIdeal.S1600000 32)
    (hd : ∀ e, 0 ≤ (dst e).toInt) :
    Cert.KernelIdeal.Operands.neigh (F := F) x src dst = Cert.ReferenceIdeal.Read.val_main_v9 (F := F) x src dst := by
  unfold Cert.KernelIdeal.Operands.neigh
  rw [wrap_dst dst hd]
  rfl

/-- The kernel program's degree + 1 is the reference's: the zero and one splats, the index column and the dimension record
    are the reference's, piece by piece. -/
theorem degp_eq (dst : IVec Cert.KernelIdeal.S1600000 32) (hd : ∀ e, 0 ≤ (dst e).toInt) :
    Cert.KernelIdeal.Operands.degp (F := F) dst = Cert.ReferenceIdeal.Read.val_main_v16 (F := F) dst := by
  have e0 : (broadcastInDim Cert.KernelIdeal.S100000 ![] Cert.KernelIdeal.Facts₀.bcast_S_S100000
      (constant (F := F) Cert.KernelIdeal.S_ .f32 0x00000000#32)) = Cert.ReferenceIdeal.Read.val_main_v11 (F := F) := rfl
  have e1 : (broadcastInDim Cert.KernelIdeal.S1600000 ![] Cert.KernelIdeal.Facts₀.bcast_S_S1600000
      (constant (F := F) Cert.KernelIdeal.S_ .f32 0x3F800000#32)) = Cert.ReferenceIdeal.Read.val_main_v10 (F := F) := rfl
  have e2 : (broadcastInDim Cert.KernelIdeal.S1600000x1 ![0] Cert.KernelIdeal.Facts₀.bcast_S1600000_S1600000x1_0 dst)
      = Cert.ReferenceIdeal.Read.val_main_v12 (F := F) dst := rfl
  have e3 : (broadcastInDim Cert.KernelIdeal.S100000 ![] Cert.KernelIdeal.Facts₀.bcast_S_S100000
      (constant (F := F) Cert.KernelIdeal.S_ .f32 0x3F800000#32)) = Cert.ReferenceIdeal.Read.val_main_v15 (F := F) := rfl
  have er : Cert.KernelIdeal.scatter_S100000_S1600000x1_S1600000_n_0_0_1
      = Cert.ReferenceIdeal.scatter_S100000_S1600000x1_S1600000_n_0_0_1 := rfl
  unfold Cert.KernelIdeal.Operands.degp
  rw [wrap_dst dst hd, e0, e1, e2, e3, er]
  unfold Cert.ReferenceIdeal.Read.val_main_v16 Cert.ReferenceIdeal.Read.val_main_v13
  rfl

end Generic

/-- The kernel program's reciprocal at node i is one over the reference's degree + 1 there. -/
theorem recip_apply (dst : IVec Cert.KernelIdeal.S1600000 32) (hd : ∀ e, 0 ≤ (dst e).toInt) (i : Fin 100000) :
    Cert.KernelIdeal.Operands.recip (F := Ideal) dst (ix1 i)
      = Ideal.div 1 (Cert.ReferenceIdeal.Read.val_main_v16 (F := Ideal) dst (ix1 i)) := by
  unfold Cert.KernelIdeal.Operands.recip
  rw [degp_eq (F := Ideal) dst hd, hostDivf_apply, broadcastInDim_scalar_apply, constant_apply, Ideal.ofBits_one_f32]

end Cert.Proof.Shared

end
-- ==== Proof.Bridge.lean ====
/-
  The two programs compute one function.  Entry (i, j) of the reference is

      sum over k < 64 of ((n(i,k) + x(i,k)) / d(i)) * W(j,k)  +  b(j),        d(i) = degree(i) + 1,

  and entry (i, j) of the kernel program is

      (sum over k < 64 of (n(i,k) + x(i,k)) * W(j,k)) * (1 / d(i))  +  b(j).

  d(i) is a count plus one, a positive real, so 1 / d(i) is a non-negative real, and a non-negative real factor moves
  across a finite sum of extended reals whatever the terms are: no finiteness of x, W or b is used.  What IS used is that
  every destination index is non-negative, so that the kernel program's NumPy-style wrap of the destinations is the
  identity and its neighbour sums n and degrees are the reference's.
-/
import proofs.«135414_j72619307041226_2_alg».proof.Proof.KernelEntry
import proofs.«135414_j72619307041226_2_alg».proof.Proof.ReferenceScaled
import proofs.«135414_j72619307041226_2_alg».proof.Proof.SharedStages

set_option maxRecDepth 16384

noncomputable section

namespace Cert.Proof.Bridge

open Idealize.ShloMosaic Idealize.ShloMosaic.ValueIdx

/-- On non-negative destinations the kernel program's result term is the reference's, as whole arrays. -/
theorem kernel_eq_reference (x : FVec Ideal Cert.KernelIdeal.S100000x64 .f32) (src dst : IVec Cert.KernelIdeal.S1600000 32)
    (W : FVec Ideal Cert.KernelIdeal.S64x64 .f32) (b : FVec Ideal Cert.KernelIdeal.S64 .f32)
    (hd : ∀ e, 0 ≤ (dst e).toInt) :
    Cert.KernelIdeal.Result.value x src dst W b = Cert.ReferenceIdeal.Read.val_main_v24 (F := Ideal) x src dst W b := by
  funext idx
  obtain ⟨i, j, rfl⟩ : ∃ (i : Fin 100000) (j : Fin 64), idx = ix2 i j := ⟨idx 0, idx 1, eq_ix2 idx⟩
  rw [Cert.KernelIdeal.Entry.value_apply, Cert.ReferenceIdeal.Scaled.result_scaled,
    Cert.Proof.Shared.neigh_eq (F := Ideal) x src dst hd, Cert.Proof.Shared.recip_apply dst hd i]

end Cert.Proof.Bridge

end
-- ==== Proof.lean ====
/-
  The certificate of a graph layer: every node's features are added to the sum of its in-neighbours' features, divided
  by its in-degree plus one, multiplied by W^T and shifted by b.

  The reference does exactly that.  The kernel program forms the same neighbour sums and degrees on the host (but wraps
  the destination indices the NumPy way first), packs two nodes per row of 128 lanes, and runs one pipelined region over ten
  blocks of 5000 packed rows: each block adds neighbour sums and features, multiplies by the block-diagonal
  [[W^T, 0], [0, W^T]], scales each lane by the reciprocal degree of its node and adds the doubled bias; a last host line
  unpacks the rows.

  The three frames are the generated ones (the reference's is its generated run with the result dropped); nothing was
  rewritten by the idealization, so the preserved-idealization claim is trivial; and at the exact instance the two results are equal
  entry by entry under the precondition that every destination index is non-negative (Proof/Bridge.lean says why, and
  why no finiteness is needed).
-/
import proofs.«135414_j72619307041226_2_alg».proof.Defs
import proofs.«135414_j72619307041226_2_alg».proof.Proof.Gen.Kernel
import proofs.«135414_j72619307041226_2_alg».proof.Proof.Gen.Kernel.Skeleton
import proofs.«135414_j72619307041226_2_alg».proof.Proof.Gen.Kernel.Launch
import proofs.«135414_j72619307041226_2_alg».proof.Proof.Gen.Kernel.Points
import proofs.«135414_j72619307041226_2_alg».proof.Proof.Gen.Kernel.Frame
import proofs.«135414_j72619307041226_2_alg».proof.Proof.Gen.KernelIdeal
import proofs.«135414_j72619307041226_2_alg».proof.Proof.Gen.KernelIdeal.Skeleton
import proofs.«135414_j72619307041226_2_alg».proof.Proof.Gen.KernelIdeal.Launch
import proofs.«135414_j72619307041226_2_alg».proof.Proof.Gen.KernelIdeal.Points
import proofs.«135414_j72619307041226_2_alg».proof.Proof.Gen.KernelIdeal.Frame
import proofs.«135414_j72619307041226_2_alg».proof.Proof.Gen.ReferenceIdeal
import proofs.«135414_j72619307041226_2_alg».proof.Proof.Gen.Pre_finite_inputs
import proofs.«135414_j72619307041226_2_alg».proof.Proof.Gen.ReferenceIdeal.Run
import proofs.«135414_j72619307041226_2_alg».proof.Proof.Gen.ReferenceIdeal.Read
import proofs.«135414_j72619307041226_2_alg».proof.Proof.KernelResult
import proofs.«135414_j72619307041226_2_alg».proof.Proof.DestinationsInRange
import proofs.«135414_j72619307041226_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both programs end with the kernel program's result term: the kernel
    program by its run, the reference because, the destinations being non-negative, its own term is that one. -/
theorem algebraic : Cert.algebraic_KernelIdeal_ReferenceIdeal := by
  intro m ρ m' ρ' hpre hagree
  refine ⟨fun c => Cert.KernelIdeal.Result.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, (hagree c).1, (hagree c).2.1, (hagree c).2.2.1,
    (hagree c).2.2.2.1, (hagree c).2.2.2.2]
  exact (Bridge.kernel_eq_reference
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (Destinations.dst_nonneg _ _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
